-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S65536x1024 .f32) (main_arg1 : FVec F S1024x1024 .f32) (main_arg2 : FVec F S1024x1024 .f32) (main_arg3 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S65536x1024.size a
  hwx0_3 : ∀ i : grid0.Coords, EltTy.bits .f32 = 32 ∨ (Rect.block (s := S65536x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S65536x1024, .f32⟩
  | .hbm, ⟨6, _⟩ => ⟨S1x1024, .f32⟩
  | .hbm, ⟨7, _⟩ => ⟨S65536x1024, .f32⟩
  | .hbm, ⟨8, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  dot_S65536x1024_S1024x1024_S65536x1024_1_1_0_0_n_n_wf : DotDims.WF S65536x1024 S1024x1024 S65536x1024 [1] [1] [0] [0] [] []

variable [Facts₀]

def dot_S65536x1024_S1024x1024_S65536x1024_1_1_0_0_n_n : DotDims S65536x1024 S1024x1024 S65536x1024 where
  lhsContracting := [1]
  rhsContracting := [1]
  lhsNonContracting := [0]
  rhsNonContracting := [0]
  lhsBatch := []
  rhsBatch := []
  wf := dot_S65536x1024_S1024x1024_S65536x1024_1_1_0_0_n_n_wf

class Facts : Prop extends Facts₀ where

variable [Facts]
-- ==== Proof.Spec.lean ====
/-
  The masked linear layer as one function of its four arrays, entry by entry.

  A batch `x` of 65536 rows of 1024 features goes through a linear layer whose 1024 × 1024 weight matrix is thinned
  by a mask of the same shape (an entry of the mask multiplies the weight it sits on: with a 0/1 mask it switches
  single connections off), and a bias of length 1024 is added to every row. At row `b` and output column `j` the
  result is

      ∑ k, x[b, k] · (weight[j, k] · mask[j, k])  +  bias[j]

  over the extended reals: row `b` of the batch against row `j` of the masked weights, then the bias of column `j`.
  Both programs of this certificate compute exactly this sum — the same terms in the same order, each term the same
  product of the same factors — so no law of arithmetic is needed to join them, and nothing is asked of the inputs:
  what remains is the bookkeeping of which entry of which array each program reads.
-/
import Idealize.ShloMosaic.PureOps.Ideal
import Idealize.ShloMosaic.Lib.ValueIdx

noncomputable section

open scoped BigOperators
open Idealize.ShloMosaic Idealize.ShloMosaic.ValueIdx

namespace Cert.MaskedLinear

/-- The batch, and the output: 65536 rows by 1024 columns. -/
abbrev Batch : Shape := ⟨2, ![65536, 1024]⟩
/-- The weight matrix and its mask: 1024 output columns by 1024 input features. -/
abbrev Square : Shape := ⟨2, ![1024, 1024]⟩
/-- The bias: one entry per output column. -/
abbrev Row : Shape := ⟨1, ![1024]⟩

/-- One entry of the layer's output: row `b` of the batch against row `j` of the masked weights, summed over the 1024
    input features, plus the bias of column `j`. -/
def entry (x : FVec Ideal Batch .f32) (mask weight : FVec Ideal Square .f32) (bias : FVec Ideal Row .f32)
    (b : Fin 65536) (j : Fin 1024) : EReal :=
  (∑ k : Fin 1024, x (ix2 b k) * (weight (ix2 j k) * mask (ix2 j k))) + bias (ix1 j)

/-- The layer's whole output array: entry `(b, j)` at index `(b, j)`. -/
def layer (x : FVec Ideal Batch .f32) (mask weight : FVec Ideal Square .f32) (bias : FVec Ideal Row .f32) :
    FVec Ideal Batch .f32 :=
  fun i => entry x mask weight bias (i 0) (i 1)

/-- The output read at coordinates. -/
theorem layer_apply (x : FVec Ideal Batch .f32) (mask weight : FVec Ideal Square .f32) (bias : FVec Ideal Row .f32)
    (b : Fin 65536) (j : Fin 1024) : layer x mask weight bias (ix2 b j) = entry x mask weight bias b j := rfl

end Cert.MaskedLinear

end
-- ==== Proof.RefLayer.lean ====
/-
  The reference program computes the masked linear layer.

  Its five operations are: the masked weights `weight · mask`, entry by entry; the batch against them, contracting
  the feature axis of both (so output `(b, j)` sums `x[b, k] · (weight · mask)[j, k]` over `k`); the bias stretched
  first to one row and then over all 65536 rows; and the sum of the two. Read at an index `(b, j)`, one operation at
  a time, that is `∑ k, x[b, k] · (weight[j, k] · mask[j, k]) + bias[j]`: the layer's entry, term for term.
-/
import proofs.«131174_j24592982736969_2_alg».proof.Proof.Gen.ReferenceIdeal.Read
import proofs.«131174_j24592982736969_2_alg».proof.Proof.Spec

noncomputable section

open scoped BigOperators
open Idealize.ShloMosaic Idealize.ShloMosaic.ValueIdx

namespace Cert.ReferenceIdeal.RefValue

open Cert.ReferenceIdeal Cert.ReferenceIdeal.Read Cert.MaskedLinear

/-- The batch is read in the output's row, at the summed feature. -/
theorem batch_index (i : S65536x1024.Idx) (k : Fin 1024) :
    lidx_main_v1 i k = ix2 (n0 := 65536) (n1 := 1024) (i 0) k :=
  funext fun a => match a with | ⟨0, _⟩ => rfl | ⟨1, _⟩ => rfl

/-- The masked weights are read in the row of the output's COLUMN, at the summed feature. -/
theorem weight_index (i : S65536x1024.Idx) (k : Fin 1024) :
    ridx_main_v1 i k = ix2 (n0 := 1024) (n1 := 1024) (i 1) k :=
  funext fun a => match a with | ⟨0, _⟩ => rfl | ⟨1, _⟩ => rfl

/-- The bias, stretched twice, is read at the output's column. -/
theorem bias_index (i : S65536x1024.Idx) : idx_main_v2 (idx_main_v3 i) = ix1 (n := 1024) (i 1) :=
  funext fun a => match a with | ⟨0, _⟩ => rfl

/-- The reference's result, as a function of its four arguments, is the layer. -/
theorem result_eq (x : FVec Ideal S65536x1024 .f32) (mask weight : FVec Ideal S1024x1024 .f32) (bias : FVec Ideal S1024 .f32) :
    val_main_v4 (F := Ideal) x mask weight bias = layer x mask weight bias := by
  funext i
  rw [val_main_v4_apply, val_main_v1_apply, val_main_v3_apply, val_main_v2_apply]
  simp only [val_main_v0_apply, batch_index, weight_index, bias_index]
  rfl

end Cert.ReferenceIdeal.RefValue

end
-- ==== Proof.Payload.lean ====
/-
  The kernel body's arithmetic, entry by entry.

  At every grid point the body loads a 1024 × 1024 block `a` of the batch, the whole 1024 × 1024 matrix `w` it is
  handed (feature `k` down the rows, output column `j` across), and the bias as one row `r`; it multiplies `a` by
  `w` on the matrix unit into an accumulator of zeros, and adds the bias row to every row of the product. Over the
  extended reals the product's entry `(p, j)` is the plain sum `∑ k, a[p, k] · w[k, j]` — narrowing `a` to bf16
  changes nothing there and the zero accumulator adds nothing —, the bias row stretched over the rows reads
  `r[0, j]` in every row, and so the stored block's entry `(p, j)` is `∑ k, a[p, k] · w[k, j] + r[0, j]`.
-/
import proofs.«131174_j24592982736969_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Body

open Cert.KernelIdeal Cert.KernelIdeal.Gen

/-- The matrix unit's dimension numbers: the left operand's axis 1 (features) is contracted with the right operand's
    axis 0; the left operand's axis 0 gives the output's rows, the right operand's axis 1 its columns. -/
abbrev mm : DotDims S1024x1024 S1024x1024 S1024x1024 := dot_S1024x1024_S1024x1024_S1024x1024_1_0_0_1_n_n

/-- The left operand is read in the output's row … -/
theorem lhs_row (j : S1024x1024.Idx) (q : mm.contr.Idx) : (mm.lhsIdx j q 0).val = (j 0).val := by
  unfold DotDims.lhsIdx
  rw [dif_neg (show ¬(0 : Fin S1024x1024.rank) ∈ mm.lhsBatch by decide),
    dif_pos (show (0 : Fin S1024x1024.rank) ∈ mm.lhsNonContracting by decide)]
  rfl
/-- … at the contracted feature; -/
theorem lhs_feature (j : S1024x1024.Idx) (q : mm.contr.Idx) : (mm.lhsIdx j q 1).val = (q ⟨0, by decide⟩).val :=
  mm.lhsIdx_val_of_single rfl j q
/-- the right operand at the contracted feature … -/
theorem rhs_feature (j : S1024x1024.Idx) (q : mm.contr.Idx) : (mm.rhsIdx j q 0).val = (q ⟨0, by decide⟩).val :=
  mm.rhsIdx_val_of_single rfl j q
/-- … in the output's column. -/
theorem rhs_column (j : S1024x1024.Idx) (q : mm.contr.Idx) : (mm.rhsIdx j q 1).val = (j 1).val := by
  unfold DotDims.rhsIdx
  rw [dif_neg (show ¬(1 : Fin S1024x1024.rank) ∈ mm.rhsBatch by decide),
    dif_pos (show (1 : Fin S1024x1024.rank) ∈ mm.rhsNonContracting by decide)]
  rfl

/-- The matrix unit's product into zeros, at entry `(p, j)`: row `p` of the left operand against column `j` of the
    right, summed over the 1024 features. -/
theorem product_entry (a w : FVec Ideal S1024x1024 .bf16) (p j : Fin 1024) :
    matmul mm none a w (constant (F := Ideal) S1024x1024 .f32 0x00000000#32) (ix2 p j)
      = ∑ k : Fin 1024, a (ix2 p k) * w (ix2 k j) := by
  show FloatOps.matmul mm none a w (constant (F := Ideal) S1024x1024 .f32 0x00000000#32) (ix2 p j) = _
  rw [Ideal.matmul_constant_zero_apply, ← Equiv.sum_comp (contrEquiv1 mm 1024 rfl rfl).symm]
  refine Finset.sum_congr rfl fun k _ => ?_
  have hk := contrEquiv1_symm_val mm 1024 rfl rfl k
  have el : mm.lhsIdx (ix2 p j) ((contrEquiv1 mm 1024 rfl rfl).symm k) = ix2 p k := funext fun c => Fin.ext (by
    match c with
    | ⟨0, _⟩ => exact lhs_row _ _
    | ⟨1, _⟩ => exact (lhs_feature _ _).trans hk)
  have er : mm.rhsIdx (ix2 p j) ((contrEquiv1 mm 1024 rfl rfl).symm k) = ix2 k j := funext fun c => Fin.ext (by
    match c with
    | ⟨0, _⟩ => exact (rhs_feature _ _).trans hk
    | ⟨1, _⟩ => exact rhs_column _ _)
  rw [el, er]

/-- THE STORED BLOCK at entry `(p, j)`, from the three loaded blocks: the product's entry plus the bias row's entry
    `j`. -/
theorem stored_entry (a : FVec Ideal S1024x1024 .f32) (w : FVec Ideal S1024x1024 .bf16) (r : FVec Ideal S1x1024 .f32)
    (p j : Fin 1024) :
    k0_pay1 (F := Ideal) a w r (ix2 p j) = (∑ k : Fin 1024, a (ix2 p k) * w (ix2 k j)) + r (ix2 (0 : Fin 1) j) := by
  unfold k0_pay1
  show matmul mm none (truncf .bf16 a bitsLt_bf16_f32) (shapeCast S1024x1024 w shapeCasts_S1024x1024_S1024x1024)
        (constant (F := Ideal) S1024x1024 .f32 0x00000000#32) (ix2 p j)
      + broadcastTo S1024x1024 (shapeCast S1x1024 r shapeCasts_S1x1024_S1x1024) broadcasts_S1x1024_S1024x1024 (ix2 p j) = _
  rw [shapeCast_self, shapeCast_self, product_entry, broadcastTo_1b_ab_apply]
  rfl

end Cert.KernelIdeal.Body

end
-- ==== Proof.Entry.lean ====
/-
  What the kernel's region finds in the two arrays the host prepares for it.

  Before the region, the host multiplies the weights by the mask entry by entry, transposes the product, narrows it to
  bf16 (no change over the extended reals), and lays the bias out as a matrix of one row. So the matrix handed to the
  kernel holds, at row `k` (a feature) and column `j` (an output column), `weight[j, k] · mask[j, k]`; and the
  one-row matrix holds `bias[j]` at column `j`. The batch itself reaches the region as it was launched.
-/
import proofs.«131174_j24592982736969_2_alg».proof.Proof.Gen.KernelIdeal.Frame
import Idealize.ShloMosaic.Lib.StableHlo.Run
import Idealize.ShloMosaic.Lib.ValueIdx
import Idealize.ShloMosaic.Lib.ValueLayout

noncomputable section

open Idealize.ShloMosaic Idealize.ShloMosaic.TcCoe Idealize.ShloMosaic.ValueIdx Idealize.SL.Sem
open Idealize.ShloMosaic.StableHlo

namespace Cert.KernelIdeal.Entry

open Cert.KernelIdeal Cert.KernelIdeal.Gen

variable (m : (ℓ : Loc nD τ sig) → Buf (Elt Ideal) ℓ)

/-- The matrix handed to the kernel, at feature `k` and output column `j`: the masked weight of column `j` at
    feature `k` (the transpose swaps the two coordinates). `W` and `Mk` name the launched weight and mask arrays. -/
theorem weights_entry (c : Dev nD) (W Mk : FVec Ideal S1024x1024 .f32)
    (hW : m ((c : Thread nD τ).loc main_arg2) = W) (hM : m ((c : Thread nD τ).loc main_arg1) = Mk) (k j : Fin 1024) :
    V m c main_v2 (ix2 k j) = W (ix2 j k) * Mk (ix2 j k) := by
  have e : (V m c main_v2 : S1024x1024.Idx → EReal)
      = truncf (F := Ideal) .bf16 (transpose S1024x1024 [1, 0] (mulf (F := Ideal) W Mk)
          transposes_S1024x1024_S1024x1024_1_0) bitsLt_bf16_f32 := by
    subst hW hM
    dsimp only [Gen.V, Gen.hostOps0]; after_results
  rw [e]
  show transpose S1024x1024 [1, 0] (mulf (F := Ideal) W Mk) transposes_S1024x1024_S1024x1024_1_0 (ix2 k j) = _
  rw [transpose_ix2_apply]
  rfl

/-- The bias as the kernel gets it, one row: at column `j` of that row, `bias[j]`. `Bs` names the launched bias. -/
theorem bias_entry (c : Dev nD) (Bs : FVec Ideal S1024 .f32) (hB : m ((c : Thread nD τ).loc main_arg3) = Bs)
    (u : Fin 1) (j : Fin 1024) :
    V m c main_v3 (ix2 u j) = Bs (ix1 j) := by
  have e : (V m c main_v3 : S1x1024.Idx → EReal) = shapeCast S1x1024 Bs shapeCasts_S1024_S1x1024 := by
    subst hB
    dsimp only [Gen.V, Gen.hostOps0]; after_results; rfl
  rw [e]
  exact shapeCast_a_1a_apply _ _ u j

end Cert.KernelIdeal.Entry

end
-- ==== Proof.Whole.lean ====
/-
  From the kernel's blocks to its whole output array.

  The grid has 64 points. Point `t` is given rows `1024·t … 1024·t + 1023` of the batch (all 1024 features), the
  whole matrix of masked weights and the whole one-row bias — the same two at every point —, and writes back rows
  `1024·t … 1024·t + 1023` of the output (all 1024 columns). By the body's arithmetic its stored entry `(p, j)` is
  row `1024·t + p` of the batch against the masked weights of column `j`, plus `bias[j]`: entry
  `(1024·t + p, j)` of the layer. So each point writes back the layer's own rows, the 64 row bands cover all 65536
  rows (row `b` lies in the band of point `b / 1024`), and after the run the output array is the layer.
-/
import proofs.«131174_j24592982736969_2_alg».proof.Proof.Gen.KernelIdeal.Value
import proofs.«131174_j24592982736969_2_alg».proof.Proof.Spec
import proofs.«131174_j24592982736969_2_alg».proof.Proof.Payload
import proofs.«131174_j24592982736969_2_alg».proof.Proof.Entry

noncomputable section

open scoped BigOperators
open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.KernelIdeal.Value Cert.MaskedLinear

/-- If the three blocks the body loads are a row band of the batch (local row `p` being row `b`), the matrix of
    masked weights with features down the rows, and the bias as one row, then the body's stored entry `(p, j)` is
    the layer's entry `(b, j)`. -/
theorem stored_is_layer (X : FVec Ideal Batch .f32) (Mk W : FVec Ideal Square .f32) (Bs : FVec Ideal Row .f32)
    (a : FVec Ideal S1024x1024 .f32) (w : FVec Ideal S1024x1024 .bf16) (r : FVec Ideal S1x1024 .f32)
    (p j : Fin 1024) (b : Fin 65536)
    (ha : ∀ k : Fin 1024, a (ix2 p k) = X (ix2 b k))
    (hw : ∀ k : Fin 1024, w (ix2 k j) = W (ix2 j k) * Mk (ix2 j k))
    (hr : r (ix2 (0 : Fin 1) j) = Bs (ix1 j)) :
    k0_pay1 (F := Ideal) a w r (ix2 p j) = layer X Mk W Bs (ix2 b j) := by
  rw [Body.stored_entry, layer_apply]
  unfold entry
  simp only [ha, hw, hr]

variable (m : (ℓ : Loc nD τ sig) → Buf (Elt Ideal) ℓ) (ρ : Dev nD → PrngReg)

/-- Every access of the body starts at the corner of its buffer. -/
theorem corner : (![0, 0] : Fin 2 → Nat) = fun _ => 0 := funext fun a => by fin_cases a <;> rfl

/-- Where each window's block sits at grid point `t`, in blocks: the batch's and the output's at row block `t`, the
    masked weights' and the bias's at the origin (decided over the 64 points). -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every one of the 64 row bands of the output is some point's block. -/
theorem band_onto : ∀ q : Fin 64, ∃ t : Fin cfg0.N, win0_3.index t = ![q.val, 0] :=
  (by decide +kernel : ∀ q : Fin 64, ∃ t : Fin grid0.N, win0_3.index t = ![q.val, 0])

/-- WHAT POINT `t` WRITES BACK is its row band of the layer of the argument arrays. -/
theorem flushed_eq (c : Dev nD) (t : Fin cfg0.N) :
    (dats m 0 c).flushed 3 t = ((cfg0.win 3).blk t).view.read (Elt Ideal) (layer (m ((c : Thread nD τ).loc main_arg0)) (m ((c : Thread nD τ).loc main_arg1)) (m ((c : Thread nD τ).loc main_arg2)) (m ((c : Thread nD τ).loc main_arg3))) := by
  rw [flushed3]
  unfold out0_3
  rw [View.canon_unit_zero corner]
  simp only [View.ld_unit_zero (S := S1024x1024) corner, View.ld_unit_zero (S := S1x1024) corner]
  obtain ⟨a0, a1, w0, w1, b0, b1, o0, o1⟩ := block_positions t
  have hN : cfg0.N = 64 := N_0
  refine funext fun (y : S1024x1024.Idx) => ?_
  obtain ⟨p, j, rfl⟩ : ∃ (p : Fin 1024) (j : Fin 1024), y = ix2 p j := ⟨y 0, y 1, eq_ix2 y⟩
  have hrow : t.val * 1024 + p.val < 65536 := by have := t.isLt; have := p.isLt; omega
  have hout : ((cfg0.win 3).blk t).view.emb (ix2 p j) = ix2 (⟨t.val * 1024 + p.val, hrow⟩ : Fin 65536) j := by
    funext d; apply Fin.ext
    match d with
    | ⟨0, _⟩ => show win0_3.index t (0 : Fin 2) * 1024 + 1 * p.val = t.val * 1024 + p.val; omega
    | ⟨1, _⟩ => show win0_3.index t (1 : Fin 2) * 1024 + 1 * j.val = j.val; omega
  show k0_pay1 (F := Ideal) (iblk m c 0 t) (iblk m c 1 t) (iblk m c 2 t) (ix2 p j)
      = layer (m ((c : Thread nD τ).loc main_arg0)) (m ((c : Thread nD τ).loc main_arg1)) (m ((c : Thread nD τ).loc main_arg2)) (m ((c : Thread nD τ).loc main_arg3)) (((cfg0.win 3).blk t).view.emb (ix2 p j))
  rw [hout]
  refine stored_is_layer (m ((c : Thread nD τ).loc main_arg0)) (m ((c : Thread nD τ).loc main_arg1)) (m ((c : Thread nD τ).loc main_arg2)) (m ((c : Thread nD τ).loc main_arg3)) (iblk m c 0 t) (iblk m c 1 t) (iblk m c 2 t) p j ⟨t.val * 1024 + p.val, hrow⟩ ?_ ?_ ?_
  · -- the batch's block: local row `p` is row `1024·t + p`
    intro k
    show V m c main_arg0 (((cfg0.win 0).blk t).view.emb (ix2 p k)) = _
    rw [V_main_arg0]
    refine congrArg _ (funext fun d => Fin.ext ?_)
    match d with
    | ⟨0, _⟩ => show win0_0.index t (0 : Fin 2) * 1024 + 1 * p.val = t.val * 1024 + p.val; omega
    | ⟨1, _⟩ => show win0_0.index t (1 : Fin 2) * 1024 + 1 * k.val = k.val; omega
  · -- the masked weights' block is the whole matrix
    intro k
    show V m c main_v2 (((cfg0.win 1).blk t).view.emb (ix2 k j)) = _
    have h1 : ((cfg0.win 1).blk t).view.emb (ix2 k j) = ix2 k j := by
      funext d; apply Fin.ext
      match d with
      | ⟨0, _⟩ => show win0_1.index t (0 : Fin 2) * 1024 + 1 * k.val = k.val; omega
      | ⟨1, _⟩ => show win0_1.index t (1 : Fin 2) * 1024 + 1 * j.val = j.val; omega
    rw [h1]
    exact Entry.weights_entry m c _ _ rfl rfl k j
  · -- the bias's block is the whole row
    show V m c main_v3 (((cfg0.win 2).blk t).view.emb (ix2 (0 : Fin 1) j)) = _
    have h2 : ((cfg0.win 2).blk t).view.emb (ix2 (0 : Fin 1) j) = ix2 (0 : Fin 1) j := by
      funext d; apply Fin.ext
      match d with
      | ⟨0, _⟩ => show win0_2.index t (0 : Fin 2) * 1 + 1 * 0 = 0; omega
      | ⟨1, _⟩ => show win0_2.index t (1 : Fin 2) * 1024 + 1 * j.val = j.val; omega
    rw [h2]
    exact Entry.bias_entry m c _ rfl 0 j

/-- An index of the output is in point `t`'s block iff each coordinate is in the block's range on its axis. -/
theorem mem_band (t : Fin cfg0.N) (i : S65536x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- THE COVER: every index of the output is in the block some point writes back — row `b` in the band of point
    `b / 1024`. -/
theorem covered (i : S65536x1024.Idx) :
    ∃ t : Fin cfg0.N, (cfg0.win 3).flush t = true ∧ i ∈ ((cfg0.win 3).blk t).view.set := by
  have hi0 : (i 0).val < 65536 := (i 0).isLt
  have hi1 : (i 1).val < 1024 := (i 1).isLt
  obtain ⟨t, ht⟩ := band_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_band]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE ARRAY after the run is the layer of the argument arrays. -/
theorem final (c : Dev nD) : (dats m 0 c).arrAt 3 cfg0.N = layer (m ((c : Thread nD τ).loc main_arg0)) (m ((c : Thread nD τ).loc main_arg1)) (m ((c : Thread nD τ).loc main_arg2)) (m ((c : Thread nD τ).loc main_arg3)) :=
  (dats m 0 c).arrAt_eq_of_cover 3 _ (fun t _ => flushed_eq m c t) covered

/-- The kernel's run: every weakly fair execution ends with the output array at the layer of the arguments and the
    arguments unchanged. -/
theorem run : θ_run defs (onTc (τ := τ) (main (F := Ideal))) ⟨m, fun _ => 0, ρ⟩ fun r => ∀ c : Dev nD,
      r.2.mem ((c : Thread nD τ).loc main_v4) = layer (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.lean ====
/-
  The masked linear layer: a Pallas kernel against its jnp reference, equal over the extended reals.

  Both programs take a batch `x` (65536 rows of 1024 features), a 1024 × 1024 weight matrix, a mask of the same shape
  and a bias of length 1024, and return, at row `b` and column `j`,

      ∑ k, x[b, k] · (weight[j, k] · mask[j, k])  +  bias[j]          (Proof/Spec.lean, `layer`).

  The reference does it in one contraction of the batch with the masked weights, then adds the bias stretched over
  the rows (Proof/RefLayer.lean). The kernel has the host mask and transpose the weights once; each of its 64 grid
  points multiplies a band of 1024 rows of the batch by that matrix on the matrix unit and adds the bias row
  (Proof/Payload.lean: the body's arithmetic; Proof/Entry.lean: what the host prepared), and the 64 bands written back
  are the layer's rows, all of them (Proof/Whole.lean). Its bf16 narrowings change nothing over the extended reals.
  The two sums have the same terms in the same order, so the two results are equal whatever the inputs hold — the
  inputs' finiteness is not used. The idealization rewrote no operation of the kernel, so there is nothing for it to
  preserve; the three programs' runs (termination, no fault, arguments unchanged) are the generated frames and the
  reference's generated run.
-/
import proofs.«131174_j24592982736969_2_alg».proof.Defs
import proofs.«131174_j24592982736969_2_alg».proof.Proof.Gen.Kernel
import proofs.«131174_j24592982736969_2_alg».proof.Proof.Gen.Kernel.Skeleton
import proofs.«131174_j24592982736969_2_alg».proof.Proof.Gen.Kernel.Launch
import proofs.«131174_j24592982736969_2_alg».proof.Proof.Gen.Kernel.Points
import proofs.«131174_j24592982736969_2_alg».proof.Proof.Gen.Kernel.Frame
import proofs.«131174_j24592982736969_2_alg».proof.Proof.Gen.KernelIdeal
import proofs.«131174_j24592982736969_2_alg».proof.Proof.Gen.KernelIdeal.Skeleton
import proofs.«131174_j24592982736969_2_alg».proof.Proof.Gen.KernelIdeal.Launch
import proofs.«131174_j24592982736969_2_alg».proof.Proof.Gen.KernelIdeal.Points
import proofs.«131174_j24592982736969_2_alg».proof.Proof.Gen.KernelIdeal.Frame
import proofs.«131174_j24592982736969_2_alg».proof.Proof.Gen.ReferenceIdeal
import proofs.«131174_j24592982736969_2_alg».proof.Proof.Gen.Pre_finite_inputs
import proofs.«131174_j24592982736969_2_alg».proof.Proof.Gen.KernelIdeal.Value
import proofs.«131174_j24592982736969_2_alg».proof.Proof.Gen.ReferenceIdeal.Run
import proofs.«131174_j24592982736969_2_alg».proof.Proof.Gen.ReferenceIdeal.Read
import proofs.«131174_j24592982736969_2_alg».proof.Proof.RefLayer
import proofs.«131174_j24592982736969_2_alg».proof.Proof.Whole
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's output array ends at the layer of its arguments
    and the reference's result at the layer of its own: the same array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
